-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S65536x16 : Shape := ⟨2, ![65536, 16]⟩
abbrev S65536 : Shape := ⟨1, ![65536]⟩
abbrev S64x256 : Shape := ⟨2, ![64, 256]⟩
abbrev S256 : Shape := ⟨1, ![256]⟩
abbrev S16x4 : Shape := ⟨2, ![16, 4]⟩
abbrev S4 : Shape := ⟨1, ![4]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S16x4 .f32) (main_arg7 : FVec F S4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S16x4 .f32 := Host.absf main_arg6
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S4096x64 .f32) (main_arg1 : FVec F S65536x16 .f32) (main_arg2 : IVec S65536 32) (main_arg3 : IVec S65536 32) (main_arg4 : FVec F S64x256 .f32) (main_arg5 : FVec F S256 .f32) (main_arg6 : FVec F S16x4 .f32) (main_arg7 : FVec F S4 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S4096x64 : Shape := ⟨2, ![4096, 64]⟩
abbrev S65536x16 : Shape := ⟨2, ![65536, 16]⟩
abbrev S65536 : Shape := ⟨1, ![65536]⟩
abbrev S64x256 : Shape := ⟨2, ![64, 256]⟩
abbrev S256 : Shape := ⟨1, ![256]⟩
abbrev S16x4 : Shape := ⟨2, ![16, 4]⟩
abbrev S4 : Shape := ⟨1, ![4]⟩
abbrev S4096x256 : Shape := ⟨2, ![4096, 256]⟩
abbrev S1x256 : Shape := ⟨2, ![1, 256]⟩
abbrev S4x4096x64 : Shape := ⟨3, ![4, 4096, 64]⟩
abbrev S65536x4 : Shape := ⟨2, ![65536, 4]⟩
abbrev S1x4 : Shape := ⟨2, ![1, 4]⟩
abbrev S4x65536 : Shape := ⟨2, ![4, 65536]⟩
abbrev S_ : Shape := ⟨0, ![]⟩
abbrev S4x1 : Shape := ⟨2, ![4, 1]⟩
abbrev S4x4096x4096 : Shape := ⟨3, ![4, 4096, 4096]⟩
abbrev S65536x1 : Shape := ⟨2, ![65536, 1]⟩
abbrev S65536x2 : Shape := ⟨2, ![65536, 2]⟩
abbrev S1x2048x1024 : Shape := ⟨3, ![1, 2048, 1024]⟩
abbrev S1x1024x64 : Shape := ⟨3, ![1, 1024, 64]⟩
abbrev S2048x64 : Shape := ⟨2, ![2048, 64]⟩
abbrev S2048x1024 : Shape := ⟨2, ![2048, 1024]⟩
abbrev S1024x64 : Shape := ⟨2, ![1024, 64]⟩

abbrev nBuf : Space → Nat
  | .hbm => 58
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S65536x16, .f32⟩
  | .hbm, ⟨2, _⟩ => ⟨S65536, .i32⟩
  | .hbm, ⟨3, _⟩ => ⟨S65536, .i32⟩
  | .hbm, ⟨4, _⟩ => ⟨S64x256, .f32⟩
  | .hbm, ⟨5, _⟩ => ⟨S256, .f32⟩
  | .hbm, ⟨6, _⟩ => ⟨S16x4, .f32⟩
  | .hbm, ⟨7, _⟩ => ⟨S4, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S4x4096x64, .f32⟩
  | .hbm, ⟨13, _⟩ => ⟨S65536x4, .f32⟩
  | .hbm, ⟨14, _⟩ => ⟨S1x4, .f32⟩
  | .hbm, ⟨15, _⟩ => ⟨S65536x4, .f32⟩
  | .hbm, ⟨16, _⟩ => ⟨S65536x4, .f32⟩
  | .hbm, ⟨17, _⟩ => ⟨S4x65536, .f32⟩
  | .hbm, ⟨18, _⟩ => ⟨S_, .f32⟩
  | .hbm, ⟨19, _⟩ => ⟨S4x65536, .f32⟩
  | .hbm, ⟨20, _⟩ => ⟨S4x65536, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4x1, .f32⟩
  | .hbm, ⟨27, _⟩ => ⟨S4x65536, .f32⟩
  | .hbm, ⟨28, _⟩ => ⟨S4x65536, .f32⟩
  | .hbm, ⟨29, _⟩ => ⟨S4x65536, .f32⟩
  | .hbm, ⟨30, _⟩ => ⟨S_, .f32⟩
  | .hbm, ⟨31, _⟩ => ⟨S4, .f32⟩
  | .hbm, ⟨32, _⟩ => ⟨S4x1, .f32⟩
  | .hbm, ⟨33, _⟩ => ⟨S4x65536, .f32⟩
  | .hbm, ⟨34, _⟩ => ⟨S4x65536, .f32⟩
  | .hbm, ⟨35, _⟩ => ⟨S_, .bf16⟩
  | .hbm, ⟨36, _⟩ => ⟨S4x4096x4096, .bf16⟩
  | .hbm, ⟨37, _⟩ => ⟨S4x65536, .bf16⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x1, .i32⟩
  | .hbm, ⟨54, _⟩ => ⟨S65536x2, .i32⟩
  | .hbm, ⟨55, _⟩ => ⟨S4x4096x4096, .bf16⟩
  | .hbm, ⟨56, _⟩ => ⟨S4x4096x64, .bf16⟩
  | .hbm, ⟨57, _⟩ => ⟨S4096x64, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x64, .bf16⟩
  | .local _ .vmem, ⟨3, _⟩ => ⟨S1x1024x64, .bf16⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let arg2 : BitVec 32 := BitVec.ofNat 32 (i 2).val
  let c3_i32_11 : BitVec 32 := 3#32
  let v16 : BitVec 1 := Scalar.cmpi .eq arg2 c3_i32_11
  let v17 : BitVec 1 := Scalar.andi v15 v16
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  shapeCasts_S4096x256_S4x4096x64 : S4096x256.ShapeCasts S4x4096x64
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  shapeCasts_S65536x4_S4x65536 : S65536x4.ShapeCasts S4x65536
  bcast_S_S4x65536 : S_.BroadcastsInDim S4x65536 (![] : Fin 0 → Fin S4x65536.rank)
  reducesTo_S4x65536_S4_d1 : S4x65536.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x65536_0_1 : S4x1.BroadcastsInDim S4x65536 (![0, 1] : Fin 2 → Fin S4x65536.rank)
  bcast_S_S4x4096x4096 : S_.BroadcastsInDim S4x4096x4096 (![] : Fin 0 → Fin S4x4096x4096.rank)
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  dot_S4096x64_S64x256_S4096x256_1_0_0_1_n_n_wf : DotDims.WF S4096x64 S64x256 S4096x256 [1] [0] [0] [1] [] []
  dot_S65536x16_S16x4_S65536x4_1_0_0_1_n_n_wf : DotDims.WF S65536x16 S16x4 S65536x4 [1] [0] [0] [1] [] []
  scatter_S4x4096x4096_S65536x2_S4x65536_0_12_12_1_wf : ScatterDims.WF S4x4096x4096 S65536x2 S4x65536 [0] [1, 2] [1, 2] 1
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x4096.size a
  hwx0_0 : ∀ i : grid0.Coords, EltTy.bits .bf16 = 32 ∨ (Rect.block (s := S4x4096x4096) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .bf16 = 32 ∨ (Rect.block (s := S4x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S4096x64.size a
  hwx0_2 : ∀ i : grid0.Coords, EltTy.bits .f32 = 32 ∨ (Rect.block (s := S4096x64) S2048x64.size (cc0_transform_2 i) (hinb0_2 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S65536x16_S16x4_S65536x4_1_0_0_1_n_n : DotDims S65536x16 S16x4 S65536x4 where
  lhsContracting := [1]
  rhsContracting := [0]
  lhsNonContracting := [0]
  rhsNonContracting := [1]
  lhsBatch := []
  rhsBatch := []
  wf := dot_S65536x16_S16x4_S65536x4_1_0_0_1_n_n_wf
def scatter_S4x4096x4096_S65536x2_S4x65536_0_12_12_1 : ScatterDims S4x4096x4096 S65536x2 S4x65536 where
  updateWindowDims := [0]
  insertedWindowDims := [1, 2]
  scatterDimsToOperandDims := [1, 2]
  indexVectorDim := 1
  wf := scatter_S4x4096x4096_S65536x2_S4x65536_0_12_12_1_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v38) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x64 : Shape := ⟨2, ![4096, 64]⟩
abbrev S65536x16 : Shape := ⟨2, ![65536, 16]⟩
abbrev S65536 : Shape := ⟨1, ![65536]⟩
abbrev S64x256 : Shape := ⟨2, ![64, 256]⟩
abbrev S256 : Shape := ⟨1, ![256]⟩
abbrev S16x4 : Shape := ⟨2, ![16, 4]⟩
abbrev S4 : Shape := ⟨1, ![4]⟩
abbrev S4096x256 : Shape := ⟨2, ![4096, 256]⟩
abbrev S1x256 : Shape := ⟨2, ![1, 256]⟩
abbrev S4x4096x64 : Shape := ⟨3, ![4, 4096, 64]⟩
abbrev S65536x4 : Shape := ⟨2, ![65536, 4]⟩
abbrev S1x4 : Shape := ⟨2, ![1, 4]⟩
abbrev S4x65536 : Shape := ⟨2, ![4, 65536]⟩
abbrev S_ : Shape := ⟨0, ![]⟩
abbrev S4x1 : Shape := ⟨2, ![4, 1]⟩
abbrev S4x4096x4096 : Shape := ⟨3, ![4, 4096, 4096]⟩
abbrev S65536x1 : Shape := ⟨2, ![65536, 1]⟩
abbrev S65536x2 : Shape := ⟨2, ![65536, 2]⟩

abbrev nBuf : Space → Nat
  | .hbm => 61
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S65536x16, .f32⟩
  | .hbm, ⟨2, _⟩ => ⟨S65536, .i32⟩
  | .hbm, ⟨3, _⟩ => ⟨S65536, .i32⟩
  | .hbm, ⟨4, _⟩ => ⟨S64x256, .f32⟩
  | .hbm, ⟨5, _⟩ => ⟨S256, .f32⟩
  | .hbm, ⟨6, _⟩ => ⟨S16x4, .f32⟩
  | .hbm, ⟨7, _⟩ => ⟨S4, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S4x4096x64, .f32⟩
  | .hbm, ⟨13, _⟩ => ⟨S65536x4, .f32⟩
  | .hbm, ⟨14, _⟩ => ⟨S1x4, .f32⟩
  | .hbm, ⟨15, _⟩ => ⟨S65536x4, .f32⟩
  | .hbm, ⟨16, _⟩ => ⟨S65536x4, .f32⟩
  | .hbm, ⟨17, _⟩ => ⟨S4x65536, .f32⟩
  | .hbm, ⟨18, _⟩ => ⟨S_, .f32⟩
  | .hbm, ⟨19, _⟩ => ⟨S4x65536, .f32⟩
  | .hbm, ⟨20, _⟩ => ⟨S4x65536, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4x1, .f32⟩
  | .hbm, ⟨27, _⟩ => ⟨S4x65536, .f32⟩
  | .hbm, ⟨28, _⟩ => ⟨S4x65536, .f32⟩
  | .hbm, ⟨29, _⟩ => ⟨S4x65536, .f32⟩
  | .hbm, ⟨30, _⟩ => ⟨S_, .f32⟩
  | .hbm, ⟨31, _⟩ => ⟨S4, .f32⟩
  | .hbm, ⟨32, _⟩ => ⟨S4x1, .f32⟩
  | .hbm, ⟨33, _⟩ => ⟨S4x65536, .f32⟩
  | .hbm, ⟨34, _⟩ => ⟨S4x65536, .f32⟩
  | .hbm, ⟨35, _⟩ => ⟨S_, .f32⟩
  | .hbm, ⟨36, _⟩ => ⟨S4x4096x4096, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S65536x1, .i32⟩
  | .hbm, ⟨52, _⟩ => ⟨S65536x1, .i32⟩
  | .hbm, ⟨53, _⟩ => ⟨S65536x2, .i32⟩
  | .hbm, ⟨54, _⟩ => ⟨S4x4096x4096, .f32⟩
  | .hbm, ⟨55, _⟩ => ⟨S4x4096x64, .f32⟩
  | .hbm, ⟨56, _⟩ => ⟨S_, .f32⟩
  | .hbm, ⟨57, _⟩ => ⟨S4096x64, .f32⟩
  | .hbm, ⟨58, _⟩ => ⟨S_, .f32⟩
  | .hbm, ⟨59, _⟩ => ⟨S4096x64, .f32⟩
  | .hbm, ⟨60, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  shapeCasts_S4096x256_S4x4096x64 : S4096x256.ShapeCasts S4x4096x64
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  shapeCasts_S65536x4_S4x65536 : S65536x4.ShapeCasts S4x65536
  bcast_S_S4x65536 : S_.BroadcastsInDim S4x65536 (![] : Fin 0 → Fin S4x65536.rank)
  reducesTo_S4x65536_S4_d1 : S4x65536.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x65536_0_1 : S4x1.BroadcastsInDim S4x65536 (![0, 1] : Fin 2 → Fin S4x65536.rank)
  bcast_S_S4x4096x4096 : S_.BroadcastsInDim S4x4096x4096 (![] : Fin 0 → Fin S4x4096x4096.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S4x4096x64_S4096x64_d0 : S4x4096x64.ReducesTo [0] S4096x64
  bcast_S_S4096x64 : S_.BroadcastsInDim S4096x64 (![] : Fin 0 → Fin S4096x64.rank)
  dot_S4096x64_S64x256_S4096x256_1_0_0_1_n_n_wf : DotDims.WF S4096x64 S64x256 S4096x256 [1] [0] [0] [1] [] []
  dot_S65536x16_S16x4_S65536x4_1_0_0_1_n_n_wf : DotDims.WF S65536x16 S16x4 S65536x4 [1] [0] [0] [1] [] []
  scatter_S4x4096x4096_S65536x2_S4x65536_0_12_12_1_wf : ScatterDims.WF S4x4096x4096 S65536x2 S4x65536 [0] [1, 2] [1, 2] 1
  dot_S4x4096x4096_S4x4096x64_S4x4096x64_2_1_1_2_0_0_wf : DotDims.WF S4x4096x4096 S4x4096x64 S4x4096x64 [2] [1] [1] [2] [0] [0]

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S65536x16_S16x4_S65536x4_1_0_0_1_n_n : DotDims S65536x16 S16x4 S65536x4 where
  lhsContracting := [1]
  rhsContracting := [0]
  lhsNonContracting := [0]
  rhsNonContracting := [1]
  lhsBatch := []
  rhsBatch := []
  wf := dot_S65536x16_S16x4_S65536x4_1_0_0_1_n_n_wf
def scatter_S4x4096x4096_S65536x2_S4x65536_0_12_12_1 : ScatterDims S4x4096x4096 S65536x2 S4x65536 where
  updateWindowDims := [0]
  insertedWindowDims := [1, 2]
  scatterDimsToOperandDims := [1, 2]
  indexVectorDim := 1
  wf := scatter_S4x4096x4096_S65536x2_S4x65536_0_12_12_1_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.StepCases.lean ====
/-
  What each of the body's three control cases leaves behind, for any float instance. The body has two
  conditionals on the grid position: "first step of a run" (zero the accumulator before adding) and
  "last step of a run" (scale the accumulator into the output block). So a point is in one of three
  cases — first, middle, last — and in each the accumulator ends at the step function applied to what
  it held (the zero block, at a first step), while only a last step stores the output block: the scaled
  accumulator. Every load and store is of a whole buffer, so what is read back is exactly what was stored.
-/
import proofs.«175985_j90357521973758_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the accumulator the step function of what it held and the two input blocks. -/
theorem acc_middle (c : Dev nD) (i : grid0.Coords) (a3 : Memref sig .tc .vmem S1x2048x1024 .bf16) (h3 : a3.IsWhole)
    (a4 : Memref sig .tc .vmem S1x1024x64 .bf16) (h4 : a4.IsWhole) (a5 : Memref sig .tc .vmem S2048x64 .f32) (h5 : a5.IsWhole)
    (a6 : Memref sig .tc .vmem S2048x64 .f32) (h6 : a6.IsWhole) (hc0 : ¬cond0_0 i) (hc1 : ¬cond0_1 i)
    (x0 : Vec F S1x2048x1024 .bf16) (x1 : Vec F S1x1024x64 .bf16) (xs0 : Vec F S2048x64 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz2]
  simp only [View.readAt_eq_ld, h3.read_unread, h4.read_unread, h6.read_unread, View.ld_unit_zero (S := S2048x64) hz2,
    View.ld_unit_zero (S := S1x2048x1024) hz3, View.ld_unit_zero (S := S1x1024x64) hz3]

/-- A last step leaves the same in the accumulator … -/
theorem acc_last (c : Dev nD) (i : grid0.Coords) (a3 : Memref sig .tc .vmem S1x2048x1024 .bf16) (h3 : a3.IsWhole)
    (a4 : Memref sig .tc .vmem S1x1024x64 .bf16) (h4 : a4.IsWhole) (a5 : Memref sig .tc .vmem S2048x64 .f32) (h5 : a5.IsWhole)
    (a6 : Memref sig .tc .vmem S2048x64 .f32) (h6 : a6.IsWhole) (hc0 : ¬cond0_0 i) (hc1 : cond0_1 i)
    (x0 : Vec F S1x2048x1024 .bf16) (x1 : Vec F S1x1024x64 .bf16) (xs0 : Vec F S2048x64 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S2048x64) hz2,
    View.ld_unit_zero (S := S1x2048x1024) hz3, View.ld_unit_zero (S := S1x1024x64) hz3]

/-- … and stores, as the output block, that accumulator scaled. -/
theorem out_last (c : Dev nD) (i : grid0.Coords) (a3 : Memref sig .tc .vmem S1x2048x1024 .bf16) (h3 : a3.IsWhole)
    (a4 : Memref sig .tc .vmem S1x1024x64 .bf16) (h4 : a4.IsWhole) (a5 : Memref sig .tc .vmem S2048x64 .f32) (h5 : a5.IsWhole)
    (a6 : Memref sig .tc .vmem S2048x64 .f32) (h6 : a6.IsWhole) (hc0 : ¬cond0_0 i) (hc1 : cond0_1 i)
    (x0 : Vec F S1x2048x1024 .bf16) (x1 : Vec F S1x1024x64 .bf16) (xs0 : Vec F S2048x64 .f32) :
    out0_C_2 c i a3 h3 a4 h4 a5 h5 a6 h6 hc0 hc1 x0 x1 xs0 = k0_pay3 (k0_pay2 xs0 x0 x1) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz2, View.readCov_unit_zero (S := S2048x64) _ hz2]
  simp only [View.readAt_eq_ld, h3.read_unread, h4.read_unread, h6.read_unread, View.ld_unit_zero (S := S2048x64) hz2,
    View.ld_unit_zero (S := S1x2048x1024) hz3, View.ld_unit_zero (S := S1x1024x64) hz3]

/-- A first step leaves the step function of the zero block and the two input blocks. -/
theorem acc_first (c : Dev nD) (i : grid0.Coords) (a3 : Memref sig .tc .vmem S1x2048x1024 .bf16) (h3 : a3.IsWhole)
    (a4 : Memref sig .tc .vmem S1x1024x64 .bf16) (h4 : a4.IsWhole) (a5 : Memref sig .tc .vmem S2048x64 .f32) (h5 : a5.IsWhole)
    (a6 : Memref sig .tc .vmem S2048x64 .f32) (h6 : a6.IsWhole) (hc0 : cond0_0 i) (hc1 : ¬cond0_1 i)
    (x0 : Vec F S1x2048x1024 .bf16) (x1 : Vec F S1x1024x64 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x64) hz2, View.readCov_unit_zero (S := S2048x64) _ hz2]
  simp only [View.readAt_eq_ld, h3.read_unread, h4.read_unread, h6.read_unread, View.ld_unit_zero (S := S2048x64) hz2,
    View.ld_unit_zero (S := S1x2048x1024) hz3, View.ld_unit_zero (S := S1x1024x64) hz3]

end Cert.KernelIdeal.Cases

end
-- ==== Proof.StepPayload.lean ====
/-
  One grid step's arithmetic on the extended reals, read at an index. The body keeps a running
  [2048, 64] accumulator: the first step of a run fills it with zeros; every step adds to it the
  product of its [2048, 1024] block of attention weights with its [1024, 64] block of projected
  node features (the matrix unit's product into a zero accumulator is the plain sum over the 1024
  contracted positions); the last step of a run scales the accumulator by the literal 0.25.
-/
import proofs.«175985_j90357521973758_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-- The dimension record of the step's matrix product: [2048, 1024] × [1024, 64], contracting the 1024. -/
abbrev stepDot : DotDims S2048x1024 S1024x64 S2048x64 := dot_S2048x1024_S1024x64_S2048x64_1_0_0_1_n_n

/-- The block a run's first step stores into the accumulator is zero everywhere. -/
theorem reset_apply (i : S2048x64.Idx) : k0_pay1 (F := Ideal) i = 0 := by
  unfold k0_pay1
  simp only [shapeCast_self]
  exact Ideal.ofBits_zero_f32

/-- The left operand's index at output (r, f) and contraction position q: row r … -/
theorem lhs_row (i : S2048x64.Idx) (q : stepDot.contr.Idx) : (stepDot.lhsIdx i q 0).val = (i 0).val := by
  unfold DotDims.lhsIdx
  rw [dif_neg (show ¬(0 : Fin S2048x1024.rank) ∈ stepDot.lhsBatch by decide),
    dif_pos (show (0 : Fin S2048x1024.rank) ∈ stepDot.lhsNonContracting by decide)]
  rfl
/-- … and column q; -/
theorem lhs_col (i : S2048x64.Idx) (q : stepDot.contr.Idx) : (stepDot.lhsIdx i q 1).val = (q ⟨0, by decide⟩).val :=
  stepDot.lhsIdx_val_of_single rfl i q
/-- the right operand's: row q … -/
theorem rhs_row (i : S2048x64.Idx) (q : stepDot.contr.Idx) : (stepDot.rhsIdx i q 0).val = (q ⟨0, by decide⟩).val :=
  stepDot.rhsIdx_val_of_single rfl i q
/-- … and column f. -/
theorem rhs_col (i : S2048x64.Idx) (q : stepDot.contr.Idx) : (stepDot.rhsIdx i q 1).val = (i 1).val := by
  unfold DotDims.rhsIdx
  rw [dif_neg (show ¬(1 : Fin S1024x64.rank) ∈ stepDot.rhsBatch by decide),
    dif_pos (show (1 : Fin S1024x64.rank) ∈ stepDot.rhsNonContracting by decide)]
  rfl

/-- A step leaves, at row r and feature f, what the accumulator held there plus the sum over the step's
    1024 positions e of weight (r, e) times feature (e, f). -/
theorem step_apply (acc : FVec Ideal S2048x64 .f32) (x : FVec Ideal S1x2048x1024 .bf16) (w : FVec Ideal S1x1024x64 .bf16)
    (r : Fin 2048) (f : Fin 64) :
    k0_pay2 acc x w (ix2 r f)
      = acc (ix2 r f) + ∑ e : Fin 1024, x (ix3 (0 : Fin 1) r e) * w (ix3 (0 : Fin 1) e f) := by
  unfold k0_pay2
  simp only [shapeCast_self, matmul]
  refine congrArg (acc (ix2 r f) + ·) ?_
  refine (Ideal.matmul_constant_zero_apply stepDot none _ _ (ix2 r f)).trans ?_
  rw [← Equiv.sum_comp (contrEquiv1 stepDot 1024 rfl rfl).symm]
  refine Finset.sum_congr rfl fun e _ => ?_
  have hk := contrEquiv1_symm_val stepDot 1024 rfl rfl e
  have el : stepDot.lhsIdx (ix2 r f) ((contrEquiv1 stepDot 1024 rfl rfl).symm e) = ix2 r e :=
    funext fun a => Fin.ext (by
      match a with
      | ⟨0, _⟩ => exact lhs_row _ _
      | ⟨1, _⟩ => exact (lhs_col _ _).trans hk)
  have er : stepDot.rhsIdx (ix2 r f) ((contrEquiv1 stepDot 1024 rfl rfl).symm e) = ix2 e f :=
    funext fun a => Fin.ext (by
      match a with
      | ⟨0, _⟩ => exact (rhs_row _ _).trans hk
      | ⟨1, _⟩ => exact rhs_col _ _)
  rw [el, er, shapeCast_1ab_ab_apply, shapeCast_1ab_ab_apply]

/-- The last step of a run writes out the accumulator times the literal 0.25. -/
theorem scale_apply (v : FVec Ideal S2048x64 .f32) (i : S2048x64.Idx) :
    k0_pay3 v i = v i * Ideal.ofBits .f32 0x3E800000#32 := by
  unfold k0_pay3
  rfl

end Cert.KernelIdeal.Step

end
-- ==== Proof.SumLaw.lean ====
/-
  Regrouping a blocked sum. A contraction over four heads and 4096 positions, visited as sixteen
  steps (step s = 4·h + k: head h = s / 4, position block k = s % 4) of 1024 positions each, is the
  plain double sum over heads and positions. Only commutativity and associativity of the addition
  are used, so the law holds in any commutative additive monoid — in particular on the extended
  reals, where no finiteness is needed.
-/
import Mathlib.Algebra.BigOperators.Fin
import Mathlib.Algebra.BigOperators.Intervals
import Mathlib.Tactic.Abel

namespace Cert.HeadSum

open Finset

/-- 4096 consecutive positions are four runs of 1024. -/
theorem sum_range_4096 {β : Type*} [AddCommMonoid β] (u : ℕ → β) :
    ∑ d ∈ range 4096, u d
      = ∑ e ∈ range 1024, u e + ∑ e ∈ range 1024, u (1024 + e) + ∑ e ∈ range 1024, u (2048 + e)
        + ∑ e ∈ range 1024, u (3072 + e) := by
  rw [show (4096 : ℕ) = 3072 + 1024 from rfl, sum_range_add, show (3072 : ℕ) = 2048 + 1024 from rfl,
    sum_range_add, show (2048 : ℕ) = 1024 + 1024 from rfl, sum_range_add]

/-- Sixteen steps of 1024 positions, step `s` reading head `s / 4` at positions `1024·(s % 4) + e`,
    sum to the double sum over the four heads and the 4096 positions. -/
theorem sum_steps_eq_sum_heads {β : Type*} [AddCommMonoid β] (g : ℕ → ℕ → β) :
    ∑ s ∈ range 16, ∑ e : Fin 1024, g (s / 4) (1024 * (s % 4) + e.val)
      = ∑ h : Fin 4, ∑ d : Fin 4096, g h.val d.val := by
  have hin : ∀ (a o : ℕ), ∑ e : Fin 1024, g a (o + e.val) = ∑ e ∈ range 1024, g a (o + e) :=
    fun a o => Fin.sum_univ_eq_sum_range (fun e => g a (o + e)) 1024
  have hin0 : ∀ a : ℕ, ∑ e : Fin 1024, g a e.val = ∑ e ∈ range 1024, g a e :=
    fun a => Fin.sum_univ_eq_sum_range (fun e => g a e) 1024
  have hout : ∀ a : ℕ, ∑ d : Fin 4096, g a d.val = ∑ d ∈ range 4096, g a d :=
    fun a => Fin.sum_univ_eq_sum_range (fun d => g a d) 4096
  have hh : ∑ h : Fin 4, ∑ d : Fin 4096, g h.val d.val = ∑ h ∈ range 4, ∑ d ∈ range 4096, g h d := by
    rw [← Fin.sum_univ_eq_sum_range (fun h => ∑ d ∈ range 4096, g h d) 4]
    exact Finset.sum_congr rfl fun h _ => hout h.val
  have h16 : ∀ F : ℕ → β, ∑ s ∈ range 16, F s
      = F 0 + F 1 + F 2 + F 3 + F 4 + F 5 + F 6 + F 7 + F 8 + F 9 + F 10 + F 11 + F 12 + F 13 + F 14 + F 15 :=
    fun F => by simp only [sum_range_succ, sum_range_zero, zero_add]
  have h4 : ∀ F : ℕ → β, ∑ s ∈ range 4, F s = F 0 + F 1 + F 2 + F 3 :=
    fun F => by simp only [sum_range_succ, sum_range_zero, zero_add]
  rw [hh, h16, h4]
  simp only [hin, hin0, sum_range_4096, Nat.reduceDiv, Nat.reduceMod, Nat.reduceMul, Nat.mul_zero, Nat.mul_one,
    Nat.zero_add]
  abel

end Cert.HeadSum
-- ==== Proof.MeanOfHeads.lean ====
/-
  The result both programs compute, as ONE function of two arrays: the attention weights
  P [4 heads, 4096 rows, 4096 positions] and the projected node features Q [4 heads, 4096 positions,
  64 features]. At row s and feature f it is

      (0 + Σ over heads a, Σ over positions d, P[a, s, d] · Q[a, d, f]) · ¼

  on the extended reals (¼ spelt as the literal 0.25 denotes). The kernel reaches the double sum in
  sixteen steps of 1024 positions (step j: head j / 4, positions 1024·(j % 4) …); that blocked sum is
  the double sum by the regrouping law, which needs no finiteness.
-/
import Idealize.ShloMosaic.PureOps.Ideal
import Idealize.ShloMosaic.Lib.ValueIdx
import proofs.«175985_j90357521973758_1_alg».proof.Proof.SumLaw

noncomputable section

namespace Cert.MeanOfHeads

open Idealize.ShloMosaic Idealize.ShloMosaic.ValueIdx

/-- Attention weights, [head, row, position]. -/
abbrev Weights := (⟨3, ![4, 4096, 4096]⟩ : Shape).Idx → EReal
/-- Projected node features, [head, position, feature]. -/
abbrev Feats := (⟨3, ![4, 4096, 64]⟩ : Shape).Idx → EReal

/-- One product P[a, s, d] · Q[a, d, f], with the four coordinates given as natural numbers (zero
    outside the arrays' ranges, which no sum below ever reaches): index arithmetic is then done on ℕ. -/
def term (P : Weights) (Q : Feats) (a s d f : ℕ) : EReal :=
  if h : a < 4 ∧ s < 4096 ∧ d < 4096 ∧ f < 64 then
    P (ix3 ⟨a, h.1⟩ ⟨s, h.2.1⟩ ⟨d, h.2.2.1⟩) * Q (ix3 ⟨a, h.1⟩ ⟨d, h.2.2.1⟩ ⟨f, h.2.2.2⟩)
  else 0

theorem term_fin (P : Weights) (Q : Feats) (a : Fin 4) (s : Fin 4096) (d : Fin 4096) (f : Fin 64) :
    term P Q a.val s.val d.val f.val = P (ix3 a s d) * Q (ix3 a d f) := by
  unfold term
  rw [dif_pos ⟨a.isLt, s.isLt, d.isLt, f.isLt⟩]

/-- The contraction over heads and positions at row `s`, feature `f`. -/
def contraction (P : Weights) (Q : Feats) (s : Fin 4096) (f : Fin 64) : EReal :=
  ∑ a : Fin 4, ∑ d : Fin 4096, P (ix3 a s d) * Q (ix3 a d f)

/-- THE RESULT: the contraction, summed from zero, times the literal 0.25. -/
def result (P : Weights) (Q : Feats) : (⟨2, ![4096, 64]⟩ : Shape).Idx → EReal := fun i =>
  (0 + contraction P Q (i 0) (i 1)) * Ideal.ofBits .f32 0x3E800000#32

theorem result_ix2 (P : Weights) (Q : Feats) (s : Fin 4096) (f : Fin 64) :
    result P Q (ix2 s f) = (0 + contraction P Q s f) * Ideal.ofBits .f32 0x3E800000#32 := rfl

/-- Sixteen steps of 1024 positions — step `j` on head `j / 4`, positions `1024·(j % 4) + e` — add up to the
    contraction. -/
theorem blocked_eq_contraction (P : Weights) (Q : Feats) (s : Fin 4096) (f : Fin 64) :
    ∑ j ∈ Finset.range 16, ∑ e : Fin 1024, term P Q (j / 4) s.val (1024 * (j % 4) + e.val) f.val
      = contraction P Q s f := by
  rw [Cert.HeadSum.sum_steps_eq_sum_heads (fun a d => term P Q a s.val d f.val)]
  exact Finset.sum_congr rfl fun a _ => Finset.sum_congr rfl fun d _ => term_fin P Q a s d f

end Cert.MeanOfHeads

end
-- ==== Proof.BlockReads.lean ====
/-
  The input blocks as reads of the whole arrays. Grid point t of the 2 × 4 × 4 grid is
  (row block t / 16, head t / 4 % 4, position block t % 4). Its weights block is rows
  2048·(t / 16) … of head t / 4 % 4 at positions 1024·(t % 4) …; its features block is the same head's
  positions 1024·(t % 4) …, all 64 features. So the product a step forms at (r, e)·(e, f) is the
  specification's product at head t / 4 % 4, row 2048·(t / 16) + r, position 1024·(t % 4) + e, feature f.
-/
import proofs.«175985_j90357521973758_1_alg».proof.Proof.Gen.KernelIdeal.Frame.Runs
import proofs.«175985_j90357521973758_1_alg».proof.Proof.MeanOfHeads

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided once over the grid's 32 points. -/
theorem index_facts : ∀ t : Fin cfg0.N,
    win0_0.index t (0 : Fin 3) = t.val / 4 % 4 ∧ win0_0.index t (1 : Fin 3) = t.val / 16 ∧ win0_0.index t (2 : Fin 3) = t.val % 4
    ∧ win0_1.index t (0 : Fin 3) = t.val / 4 % 4 ∧ win0_1.index t (1 : Fin 3) = t.val % 4 ∧ win0_1.index t (2 : Fin 3) = 0
    ∧ win0_2.index t (0 : Fin 2) = t.val / 16 ∧ win0_2.index t (1 : Fin 2) = 0 :=
  (by decide +kernel : ∀ t : Fin grid0.N, _)

/-- The attention weights as the region finds them. -/
abbrev weights (c : Dev nD) : Cert.MeanOfHeads.Weights := fun i => V m c main_v38 i
/-- The projected node features as the region finds them. -/
abbrev feats (c : Dev nD) : Cert.MeanOfHeads.Feats := fun i => V m c main_v39 i

/-- Entry (r, e) of point t's weights block. -/
theorem weights_block (c : Dev nD) (t : Fin cfg0.N) (r : Fin 2048) (e : Fin 1024)
    (ha : t.val / 4 % 4 < 4) (hs : 2048 * (t.val / 16) + r.val < 4096) (hd : 1024 * (t.val % 4) + e.val < 4096) :
    (iblk m c 0 t : Vec Ideal S1x2048x1024 .bf16) (ix3 (0 : Fin 1) r e)
      = weights m c (ix3 ⟨t.val / 4 % 4, ha⟩ ⟨2048 * (t.val / 16) + r.val, hs⟩ ⟨1024 * (t.val % 4) + e.val, hd⟩) := by
  obtain ⟨e0, e1, e2, -⟩ := index_facts t
  unfold iblk
  rw [View.read_apply]
  show V m c (Pipeline.arrRef spec0 0) _ = V m c main_v38 _
  generalize V m c = W
  show W main_v38 _ = W main_v38 _
  refine congrArg (W main_v38) (funext fun a => Fin.ext ?_)
  match a with
  | ⟨0, _⟩ => show win0_0.index t (0 : Fin 3) * 1 + 1 * 0 = t.val / 4 % 4; omega
  | ⟨1, _⟩ => show win0_0.index t (1 : Fin 3) * 2048 + 1 * r.val = 2048 * (t.val / 16) + r.val; omega
  | ⟨2, _⟩ => show win0_0.index t (2 : Fin 3) * 1024 + 1 * e.val = 1024 * (t.val % 4) + e.val; omega

/-- Entry (e, f) of point t's features block. -/
theorem feats_block (c : Dev nD) (t : Fin cfg0.N) (e : Fin 1024) (f : Fin 64)
    (ha : t.val / 4 % 4 < 4) (hd : 1024 * (t.val % 4) + e.val < 4096) :
    (iblk m c 1 t : Vec Ideal S1x1024x64 .bf16) (ix3 (0 : Fin 1) e f)
      = feats m c (ix3 ⟨t.val / 4 % 4, ha⟩ ⟨1024 * (t.val % 4) + e.val, hd⟩ f) := by
  obtain ⟨-, -, -, e0, e1, e2, -⟩ := index_facts t
  unfold iblk
  rw [View.read_apply]
  show V m c (Pipeline.arrRef spec0 1) _ = V m c main_v39 _
  generalize V m c = W
  show W main_v39 _ = W main_v39 _
  refine congrArg (W main_v39) (funext fun a => Fin.ext ?_)
  match a with
  | ⟨0, _⟩ => show win0_1.index t (0 : Fin 3) * 1 + 1 * 0 = t.val / 4 % 4; omega
  | ⟨1, _⟩ => show win0_1.index t (1 : Fin 3) * 1024 + 1 * e.val = 1024 * (t.val % 4) + e.val; omega
  | ⟨2, _⟩ => show win0_1.index t (2 : Fin 3) * 64 + 1 * f.val = f.val; omega

/-- The product a step forms from its two blocks at (r, e) and (e, f) is the specification's product. -/
theorem block_product (c : Dev nD) (t : Fin cfg0.N) (r : Fin 2048) (e : Fin 1024) (f : Fin 64)
    (x : FVec Ideal S1x2048x1024 .bf16) (w : FVec Ideal S1x1024x64 .bf16)
    (hx : x = iblk m c 0 t) (hw : w = iblk m c 1 t) :
    x (ix3 (0 : Fin 1) r e) * w (ix3 (0 : Fin 1) e f)
      = Cert.MeanOfHeads.term (weights m c) (feats m c) (t.val / 4 % 4) (2048 * (t.val / 16) + r.val) (1024 * (t.val % 4) + e.val) f.val := by
  have hN : t.val < 32 := lt_of_lt_of_eq t.isLt (show cfg0.N = 32 from N_0)
  have ha : t.val / 4 % 4 < 4 := Nat.mod_lt _ (by decide)
  have hs : 2048 * (t.val / 16) + r.val < 4096 := by have := r.isLt; omega
  have hd : 1024 * (t.val % 4) + e.val < 4096 := by have := e.isLt; omega
  have e1 : x (ix3 (0 : Fin 1) r e) = weights m c (ix3 ⟨t.val / 4 % 4, ha⟩ ⟨2048 * (t.val / 16) + r.val, hs⟩ ⟨1024 * (t.val % 4) + e.val, hd⟩) := by
    rw [hx]; exact weights_block m c t r e ha hs hd
  have e2 : w (ix3 (0 : Fin 1) e f) = feats m c (ix3 ⟨t.val / 4 % 4, ha⟩ ⟨1024 * (t.val % 4) + e.val, hd⟩ f) := by
    rw [hw]; exact feats_block m c t e f ha hd
  unfold Cert.MeanOfHeads.term
  rw [dif_pos ⟨ha, hs, hd, f.isLt⟩, e1, e2]

end Cert.KernelIdeal.Blocks

end
-- ==== Proof.Accumulated.lean ====
/-
  The kernel's result array. For each of the two row blocks the grid runs sixteen consecutive points
  (head-major, then position block); the accumulator after a run's j-th point is zero plus the sum of
  what the points so far added, by induction along the run, and each point adds its 1024 products.
  The run's last point writes the accumulator times 0.25 back as the row block of the result. The
  sixteen addends regroup into the double sum over heads and positions, so that block is the
  specification's result at rows 2048·q …, and the two blocks cover the [4096, 64] array.
-/
import proofs.«175985_j90357521973758_1_alg».proof.Proof.Gen.KernelIdeal.Value
import proofs.«175985_j90357521973758_1_alg».proof.Proof.StepCases
import proofs.«175985_j90357521973758_1_alg».proof.Proof.StepPayload
import proofs.«175985_j90357521973758_1_alg».proof.Proof.BlockReads
import proofs.«175985_j90357521973758_1_alg».proof.Proof.MeanOfHeads

noncomputable section

namespace Cert.KernelIdeal.Acc

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks (weights feats)

variable (m : (ℓ : Loc nD τ sig) → Buf (Elt Ideal) ℓ) (ρ : Dev nD → PrngReg)

/-- What grid point `n` adds to the accumulator at an index (r, f) of the row block: its 1024 products, on
    head `n / 4 % 4`, row `2048·(n / 16) + r`, positions `1024·(n % 4) + e`. -/
def addend (c : Dev nD) (n : ℕ) (i : S2048x64.Idx) : EReal :=
  ∑ e : Fin 1024, Cert.MeanOfHeads.term (weights m c) (feats m c) (n / 4 % 4) (2048 * (n / 16) + (i 0).val)
    (1024 * (n % 4) + e.val) (i 1).val

/-- The step function at point `t`'s blocks adds point `t`'s addend, whatever the accumulator held. -/
theorem step_at (c : Dev nD) (t : Fin cfg0.N) (acc : Vec Ideal S2048x64 .f32) (i : S2048x64.Idx) :
    k0_pay2 acc (iblk m c 0 t : Vec Ideal S1x2048x1024 .bf16) (iblk m c 1 t : Vec Ideal S1x1024x64 .bf16) i
      = acc i + addend m c t.val i := by
  obtain ⟨r, f, rfl⟩ : ∃ (r : Fin 2048) (f : Fin 64), i = ix2 r f := ⟨i 0, i 1, eq_ix2 i⟩
  refine (Cert.KernelIdeal.Step.step_apply acc (iblk m c 0 t) (iblk m c 1 t) r f).trans ?_
  unfold addend
  refine congrArg (acc (ix2 r f) + ·) (Finset.sum_congr rfl fun e _ => ?_)
  exact Cert.KernelIdeal.Blocks.block_product m c t r e f (iblk m c 0 t) (iblk m c 1 t) rfl rfl

/-- At a run's first point the accumulator ends at zero plus that point's addend (what it held is not read). -/
theorem first_step (c : Dev nD) (n : ℕ) (hb : n < cfg0.N) (h0 : n % 16 = 0) (held : Vec Ideal S2048x64 .f32)
    (i : S2048x64.Idx) : Value.scAt0_0 m c n hb held i = 0 + addend m c n i := by
  have h1 : ¬n % 16 = 15 := by omega
  unfold Value.scAt0_0
  rw [dif_pos h0, dif_neg h1]
  refine (congrFun (Cert.KernelIdeal.Cases.acc_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
    ((hcond0_0 ⟨n, hb⟩).mpr h0) (fun h => h1 ((hcond0_1 ⟨n, hb⟩).mp h)) (iblk m c 0 ⟨n, hb⟩) (iblk m c 1 ⟨n, hb⟩)) i).trans ?_
  refine (step_at m c ⟨n, hb⟩ _ i).trans ?_
  rw [Cert.KernelIdeal.Step.reset_apply]

/-- At every later point of a run it ends at what it held plus that point's addend. -/
theorem later_step (c : Dev nD) (n : ℕ) (hb : n < cfg0.N) (h0 : ¬n % 16 = 0) (held : Vec Ideal S2048x64 .f32)
    (i : S2048x64.Idx) : Value.scAt0_0 m c n hb held i = held i + addend m c n i := by
  unfold Value.scAt0_0
  rw [dif_neg h0]
  by_cases h1 : n % 16 = 15
  · rw [dif_pos h1]
    exact (congrFun (Cert.KernelIdeal.Cases.acc_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
      (fun h => h0 ((hcond0_0 ⟨n, hb⟩).mp h)) ((hcond0_1 ⟨n, hb⟩).mpr h1) (iblk m c 0 ⟨n, hb⟩) (iblk m c 1 ⟨n, hb⟩) held) i).trans
      (step_at m c ⟨n, hb⟩ held i)
  · rw [dif_neg h1]
    exact (congrFun (Cert.KernelIdeal.Cases.acc_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
      (fun h => h0 ((hcond0_0 ⟨n, hb⟩).mp h)) (fun h => h1 ((hcond0_1 ⟨n, hb⟩).mp h)) (iblk m c 0 ⟨n, hb⟩) (iblk m c 1 ⟨n, hb⟩) held) i).trans
      (step_at m c ⟨n, hb⟩ held i)

/-- THE ACCUMULATOR after the j-th point of the run that starts at point 16·q: zero plus the addends of the
    run's points so far. -/
theorem acc_fold (c : Dev nD) (q j : ℕ) (hj : j ≤ 15) (h : 16 * q + j < cfg0.N) (i : S2048x64.Idx) :
    Pipeline.accAt (fun n h => Value.scAt0_0 m c n h (VS0_0.read (Elt Ideal) VS0_0.junk)) (Value.scAt0_0 m c) (16 * q) j h i
      = 0 + ∑ s ∈ Finset.range (j + 1), addend m c (16 * q + s) i :=
  Pipeline.accAt_add_apply (ι := S2048x64.Idx) (β := EReal)
    (fun n h => Value.scAt0_0 m c n h (VS0_0.read (Elt Ideal) VS0_0.junk)) (Value.scAt0_0 m c) (fun _ => 0) (addend m c)
    (16 * q) 15
    (fun hb i => first_step m c (16 * q) hb (by omega) _ i)
    (fun n hb held i hlt hle => later_step m c n hb (by omega) held i) j hj h i

/-- The sixteen addends of run q, at (r, f), are the contraction at row 2048·q + r, feature f. -/
theorem run_addends (c : Dev nD) (q : ℕ) (r : Fin 2048) (f : Fin 64) (hs : 2048 * q + r.val < 4096) :
    ∑ s ∈ Finset.range 16, addend m c (16 * q + s) (ix2 r f)
      = Cert.MeanOfHeads.contraction (weights m c) (feats m c) ⟨2048 * q + r.val, hs⟩ f := by
  rw [← Cert.MeanOfHeads.blocked_eq_contraction]
  refine Finset.sum_congr rfl fun s hs' => ?_
  have hs16 : s < 16 := Finset.mem_range.mp hs'
  unfold addend
  refine Finset.sum_congr rfl fun e _ => ?_
  have e1 : (16 * q + s) / 4 % 4 = s / 4 := by omega
  have e2 : (16 * q + s) / 16 = q := by omega
  have e3 : (16 * q + s) % 4 = s % 4 := by omega
  rw [e1, e2, e3]

/-- The specification's result of the two arrays the region reads, as contents of the result array. -/
abbrev resultBuf (c : Dev nD) : Buf (Elt Ideal) ((c : Thread nD τ).loc main_v40) :=
  Cert.MeanOfHeads.result (weights m c) (feats m c)

/-- WHAT A RUN'S LAST POINT WRITES BACK is its row block of the specification's result. -/
theorem flushed_eq (c : Dev nD) (t : Fin cfg0.N) (hf : (cfg0.win 2).flush t = true) :
    (dats m 0 c).flushed 2 t = ((cfg0.win 2).blk t).view.read (Elt Ideal) (resultBuf m c) := by
  have hN : t.val < 32 := lt_of_lt_of_eq t.isLt (show cfg0.N = 32 from N_0)
  have h15 : t.val % 16 = 15 := (flush0_2 t).mp hf
  have h0 : ¬t.val % 16 = 0 := by omega
  rw [Value.flushed2_C m c t h0 h15]
  generalize hprev : (outsAt0 m c (t.val - 1) (Nat.lt_of_le_of_lt (Nat.sub_le _ _) t.isLt)).2 = prev
  have hlast : (outsAt0 m c t.val t.isLt).2 = k0_pay2 prev (iblk m c 0 t) (iblk m c 1 t) := by
    rw [outsAt0_C m c t h0 h15]
    dsimp only
    rw [hprev]
    exact Cert.KernelIdeal.Cases.acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h15) (iblk m c 0 t) (iblk m c 1 t) prev
  rw [Cert.KernelIdeal.Cases.out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h15) (iblk m c 0 t) (iblk m c 1 t) prev,
    ← hlast, Value.soutsAt0_0_eq m c t]
  obtain ⟨-, -, -, -, -, -, i0, i1⟩ := Cert.KernelIdeal.Blocks.index_facts t
  funext y
  obtain ⟨r, f, rfl⟩ : ∃ (r : Fin 2048) (f : Fin 64), y = ix2 r f := ⟨y 0, y 1, eq_ix2 y⟩
  have hr := r.isLt
  have hs : 2048 * (t.val / 16) + r.val < 4096 := by omega
  have hemb : ((cfg0.win 2).blk t).view.emb (ix2 r f) = ix2 (⟨2048 * (t.val / 16) + r.val, hs⟩ : Fin 4096) f := by
    funext a; apply Fin.ext
    match a with
    | ⟨0, _⟩ => show win0_2.index t (0 : Fin 2) * 2048 + 1 * r.val = 2048 * (t.val / 16) + r.val; omega
    | ⟨1, _⟩ => show win0_2.index t (1 : Fin 2) * 64 + 1 * f.val = f.val; omega
  show k0_pay3 (F := Ideal) _ (ix2 r f) = resultBuf m c (((cfg0.win 2).blk t).view.emb (ix2 r f))
  rw [hemb]
  refine (Cert.KernelIdeal.Step.scale_apply _ (ix2 r f)).trans ?_
  rw [acc_fold m c (t.val / 16) (t.val % 16) (by omega) _ (ix2 r f), h15]
  show (0 + ∑ s ∈ Finset.range 16, addend m c (16 * (t.val / 16) + s) (ix2 r f)) * _ = _
  rw [run_addends m c (t.val / 16) r f hs]
  rfl

/-- Every index of the result array is in the block some run's last point writes back. -/
theorem cover (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  have hN : cfg0.N = 32 := N_0
  have hb : 16 * ((i 0).val / 2048) + 15 < cfg0.N := by rw [hN]; omega
  obtain ⟨-, -, -, -, -, -, e0, e1⟩ := Cert.KernelIdeal.Blocks.index_facts ⟨16 * ((i 0).val / 2048) + 15, hb⟩
  have e0' : win0_2.index ⟨16 * ((i 0).val / 2048) + 15, hb⟩ (0 : Fin 2) = (i 0).val / 2048 := by
    rw [e0]; show (16 * ((i 0).val / 2048) + 15) / 16 = _; omega
  refine ⟨⟨16 * ((i 0).val / 2048) + 15, hb⟩, (flush0_2 _).mpr (by show (16 * ((i 0).val / 2048) + 15) % 16 = 15; omega), ?_⟩
  show i ∈ ((View.whole main_v40).slice (win0_2.rect ⟨16 * ((i 0).val / 2048) + 15, hb⟩)).set
  rw [View.set_slice_whole, Rect.mem_set_unit]
  intro a
  match a with
  | ⟨0, _⟩ =>
    show win0_2.index ⟨16 * ((i 0).val / 2048) + 15, hb⟩ (0 : Fin 2) * 2048 ≤ (i 0).val
      ∧ (i 0).val < win0_2.index ⟨16 * ((i 0).val / 2048) + 15, hb⟩ (0 : Fin 2) * 2048 + 2048
    rw [e0']; omega
  | ⟨1, _⟩ =>
    show win0_2.index ⟨16 * ((i 0).val / 2048) + 15, hb⟩ (1 : Fin 2) * 64 ≤ (i 1).val
      ∧ (i 1).val < win0_2.index ⟨16 * ((i 0).val / 2048) + 15, hb⟩ (1 : Fin 2) * 64 + 64
    rw [e1]; omega

/-- So the result array ends holding the specification's result of the two arrays the region reads. -/
theorem final_out (c : Dev nD) : (dats m 0 c).arrAt 2 cfg0.N = resultBuf m c :=
  (dats m 0 c).arrAt_eq_of_cover 2 (resultBuf m c) (fun t hf => flushed_eq m c t hf) cover

/-- The kernel's run, read: the result array at that value, the arguments unchanged. -/
theorem run : θ_run defs (onTc (τ := τ) (main (F := Ideal))) ⟨m, fun _ => 0, ρ⟩ fun r => ∀ c : Dev nD,
      r.2.mem ((c : Thread nD τ).loc main_v40) = resultBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2⟩) (Value.run_blocks m ρ)

end Cert.KernelIdeal.Acc

end
-- ==== Proof.ScatterFill.lean ====
/-
  The dense attention array, with the value it is filled with before the scatter left as a parameter.
  Both programs build it the same way — a constant fill, then one write per edge of that edge's softmax
  weight at (head, source, destination) — and differ only in how the fill is spelt (a bf16 zero in the
  kernel's program, an f32 zero in the reference). With the f32 zero it is the reference's own stage.
-/
import proofs.«175985_j90357521973758_1_alg».proof.Proof.Gen.ReferenceIdeal.Read

noncomputable section

namespace Cert.ReferenceIdeal.Fill

open Cert.ReferenceIdeal Cert.ReferenceIdeal.Gen Cert.ReferenceIdeal.Read Idealize.ShloMosaic

/-- The scatter of the per-edge softmax weights (a function of the edge inputs `x1`, the edge projection's
    weight `x6` and bias `x7`) at the positions the index arrays `x2`, `x3` give, into an array filled
    with the scalar `z`. -/
def scatterOver (z : (⟨S_, .f32⟩ : BufTy).Contents (Elt Ideal))
    (x1 : (⟨S65536x16, .f32⟩ : BufTy).Contents (Elt Ideal)) (x2 x3 : (⟨S65536, .i32⟩ : BufTy).Contents (Elt Ideal))
    (x6 : (⟨S16x4, .f32⟩ : BufTy).Contents (Elt Ideal)) (x7 : (⟨S4, .f32⟩ : BufTy).Contents (Elt Ideal)) :
    (⟨S4x4096x4096, .f32⟩ : BufTy).Contents (Elt Ideal) :=
  Host.scatter scatter_S4x4096x4096_S65536x2_S4x65536_0_12_12_1 (fun _ b => b)
    (broadcastInDim S4x4096x4096 ![] bcast_S_S4x4096x4096 z)
    (val_main_v36 (F := Ideal) x2 x3) (val_main_v22 (F := Ideal) x1 x6 x7)

/-- Filled with the f32 zero it is the reference's scatter stage. -/
theorem scatterOver_zero (x1 : (⟨S65536x16, .f32⟩ : BufTy).Contents (Elt Ideal)) (x2 x3 : (⟨S65536, .i32⟩ : BufTy).Contents (Elt Ideal))
    (x6 : (⟨S16x4, .f32⟩ : BufTy).Contents (Elt Ideal)) (x7 : (⟨S4, .f32⟩ : BufTy).Contents (Elt Ideal)) :
    scatterOver (constant (F := Ideal) S_ .f32 0x00000000#32) x1 x2 x3 x6 x7 = val_main_v37 (F := Ideal) x1 x2 x3 x6 x7 := rfl

end Cert.ReferenceIdeal.Fill

end
-- ==== Proof.Quarter.lean ====
/-
  The float literals of the two programs, as the extended reals they denote: the kernel's final scale
  0.25 is the real 1/4, the reference's divisor 4.0 is the real 4, and both zero patterns (the f32 one
  and the bf16 one) are 0. Dividing an extended real by 4 is multiplying it by 1/4 — for every
  extended real, infinite ones included — which is what joins the mean over the four heads to the
  kernel's scaling of its accumulated sum.
-/
import Idealize.ShloMosaic.PureOps.Ideal

noncomputable section

namespace Cert.Quarter

open Idealize.ShloMosaic

/-- The pattern of `4.0` denotes the real 4. -/
theorem ofBits_four : Ideal.ofBits .f32 0x40800000#32 = ((4 : ℝ) : EReal) := by
  simp [Ideal.ofBits, Ideal.ieee, -EReal.coe_mul]; norm_num

/-- The pattern of `0.25` denotes the real 1/4. -/
theorem ofBits_quarter : Ideal.ofBits .f32 0x3E800000#32 = ((1 / 4 : ℝ) : EReal) := by
  simp [Ideal.ofBits, Ideal.ieee, -EReal.coe_mul]; norm_num

/-- The f32 pattern of `+0.0` denotes 0. -/
theorem ofBits_zero_f32 : Ideal.ofBits .f32 0x00000000#32 = 0 := by
  simp [Ideal.ofBits, Ideal.ieee]

/-- The bf16 pattern of `+0.0` denotes 0. -/
theorem ofBits_zero_bf16 : Ideal.ofBits .bf16 0x0000#16 = 0 := by
  simp [Ideal.ofBits, Ideal.ieee]

/-- A quotient by the literal 4.0 is the product with the literal 0.25, on every extended real. -/
theorem div_four_eq_mul_quarter (x : EReal) :
    Ideal.div x (Ideal.ofBits .f32 0x40800000#32) = x * Ideal.ofBits .f32 0x3E800000#32 := by
  rw [ofBits_four, ofBits_quarter]
  exact Ideal.div_coe (by norm_num) x

end Cert.Quarter

end
-- ==== Proof.HostPrefix.lean ====
/-
  The two arrays the kernel's region reads are the reference's own intermediate values. Before the
  region the kernel's program runs, operation for operation and literal for literal, the reference's
  host operations: the node projection reshaped to [head, node, feature]; the edge projection, its
  softmax over the edges of each head, and the scatter of those weights into the dense
  [head, source, destination] array. It differs only by two roundings to bf16 — the identity on the
  extended reals — and by the spelling of the scatter's zero fill. So neither the softmax nor the
  scatter is ever opened: the kernel's inputs are named as the reference's stages.
-/
import proofs.«175985_j90357521973758_1_alg».proof.Proof.Gen.KernelIdeal.Frame.Runs
import proofs.«175985_j90357521973758_1_alg».proof.Proof.Gen.ReferenceIdeal.Read
import proofs.«175985_j90357521973758_1_alg».proof.Proof.ScatterFill
import proofs.«175985_j90357521973758_1_alg».proof.Proof.Quarter
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The projected node features the region reads are the reference's reshaped node projection. -/
theorem feats_eq (c : Dev nD) :
    (V m c main_v39 : S4x4096x64.Idx → EReal)
      = Cert.ReferenceIdeal.Read.val_main_v4 (F := Ideal) (m ((c : Thread nD τ).loc main_arg0)) (m ((c : Thread nD τ).loc main_arg4)) (m ((c : Thread nD τ).loc main_arg5)) := by
  dsimp only [V, hostOps0]
  after_results_simp
  rfl

/-- Both zero fills denote 0. -/
theorem fill_eq : (constant (F := Ideal) S_ .bf16 0x0000#16 : S_.Idx → EReal) = constant (F := Ideal) S_ .f32 0x00000000#32 := by
  funext i
  show Ideal.ofBits .bf16 0x0000#16 = Ideal.ofBits .f32 0x00000000#32
  rw [Cert.Quarter.ofBits_zero_bf16, Cert.Quarter.ofBits_zero_f32]

/-- The attention weights the region reads are the reference's scatter stage. -/
theorem weights_eq (c : Dev nD) :
    (V m c main_v38 : S4x4096x4096.Idx → EReal)
      = Cert.ReferenceIdeal.Read.val_main_v37 (F := Ideal) (m ((c : Thread nD τ).loc main_arg1)) (m ((c : Thread nD τ).loc main_arg2)) (m ((c : Thread nD τ).loc main_arg3)) (m ((c : Thread nD τ).loc main_arg6)) (m ((c : Thread nD τ).loc main_arg7)) := by
  have e : (V m c main_v38 : S4x4096x4096.Idx → EReal)
      = Cert.ReferenceIdeal.Fill.scatterOver (constant (F := Ideal) S_ .bf16 0x0000#16) (m ((c : Thread nD τ).loc main_arg1)) (m ((c : Thread nD τ).loc main_arg2)) (m ((c : Thread nD τ).loc main_arg3)) (m ((c : Thread nD τ).loc main_arg6)) (m ((c : Thread nD τ).loc main_arg7)) := by
    dsimp only [V, hostOps0]
    after_results_simp
    rfl
  rw [e, fill_eq]
  exact Cert.ReferenceIdeal.Fill.scatterOver_zero _ _ _ _ _

end Cert.KernelIdeal.Prefix

end
-- ==== Proof.RefTail.lean ====
/-
  The reference's last five operations, read at an index. From the dense attention array P (its
  scatter stage) and the projected node features Q (its reshape stage) the reference takes the batched
  product over heads — at (head a, row s, feature f) the sum over the 4096 positions d of
  P[a, s, d] · Q[a, d, f] —, sums the four heads from zero, and divides by the literal 4.0. Dividing by
  4 is multiplying by ¼, so this is the specification's result of P and Q.
-/
import proofs.«175985_j90357521973758_1_alg».proof.Proof.Gen.ReferenceIdeal.Read
import proofs.«175985_j90357521973758_1_alg».proof.Proof.MeanOfHeads
import proofs.«175985_j90357521973758_1_alg».proof.Proof.Quarter

noncomputable section

namespace Cert.ReferenceIdeal.Tail

open Cert.ReferenceIdeal Cert.ReferenceIdeal.Gen Cert.ReferenceIdeal.Read Idealize.ShloMosaic
open Idealize.ShloMosaic.ValueIdx

theorem result_eq (x0 : (⟨S4096x64, .f32⟩ : BufTy).Contents (Elt Ideal)) (x1 : (⟨S65536x16, .f32⟩ : BufTy).Contents (Elt Ideal))
    (x2 x3 : (⟨S65536, .i32⟩ : BufTy).Contents (Elt Ideal)) (x4 : (⟨S64x256, .f32⟩ : BufTy).Contents (Elt Ideal))
    (x5 : (⟨S256, .f32⟩ : BufTy).Contents (Elt Ideal)) (x6 : (⟨S16x4, .f32⟩ : BufTy).Contents (Elt Ideal))
    (x7 : (⟨S4, .f32⟩ : BufTy).Contents (Elt Ideal)) :
    val_main_v41 (F := Ideal) x0 x1 x2 x3 x4 x5 x6 x7
      = Cert.MeanOfHeads.result (val_main_v37 (F := Ideal) x1 x2 x3 x6 x7) (val_main_v4 (F := Ideal) x0 x4 x5) := by
  funext i
  obtain ⟨s, f, rfl⟩ : ∃ (s : Fin 4096) (f : Fin 64), i = ix2 s f := ⟨i 0, i 1, eq_ix2 i⟩
  rw [val_main_v41_apply, val_main_v39_apply, val_main_v40_apply, val_main_cst_8_apply, val_main_cst_7_apply,
    Cert.MeanOfHeads.result_ix2]
  simp only [val_main_v38_apply]
  show Ideal.div (Ideal.ofBits .f32 0x00000000#32 + _) (Ideal.ofBits .f32 0x40800000#32) = _
  rw [Cert.Quarter.div_four_eq_mul_quarter, Cert.Quarter.ofBits_zero_f32]
  refine congrArg (fun z => (0 + z) * Ideal.ofBits .f32 0x3E800000#32) ?_
  unfold Cert.MeanOfHeads.contraction
  refine Finset.sum_congr rfl fun a _ => Finset.sum_congr rfl fun d _ => ?_
  have el : lidx_main_v38 (idx_main_v39 (ix2 s f) a) d = ix3 a s d :=
    funext fun b => Fin.ext (by match b with | ⟨0, _⟩ => rfl | ⟨1, _⟩ => rfl | ⟨2, _⟩ => rfl)
  have er : ridx_main_v38 (idx_main_v39 (ix2 s f) a) d = ix3 a d f :=
    funext fun b => Fin.ext (by match b with | ⟨0, _⟩ => rfl | ⟨1, _⟩ => rfl | ⟨2, _⟩ => rfl)
  rw [el, er]

end Cert.ReferenceIdeal.Tail

end
-- ==== Proof.lean ====
/-
  Multi-head attention message passing on a graph, against its jnp reference, on the extended reals.

  Both programs project the node inputs to Q [4 heads, 4096 nodes, 64 features], project the edge
  inputs, take the softmax over the edges of each head, and scatter the edge weights into the dense
  array P [4 heads, 4096 sources, 4096 destinations]; up to there they run the same operations on the
  same literals (two roundings to bf16 in the kernel's program are the identity on the extended reals,
  and its bf16 zero fill and the reference's f32 zero fill are both 0). From P and Q the reference takes
  the batched product over heads, sums the heads from zero and divides by 4; the kernel accumulates, for
  each block of 2048 rows, sixteen products of a [2048, 1024] block of P with a [1024, 64] block of Q
  (head-major, then position block) into an accumulator it zeroes first, and writes the accumulator
  times 0.25. At row s and feature f both are

      (0 + Σ over heads a, Σ over positions d, P[a, s, d] · Q[a, d, f]) · ¼ :

  the kernel's blocked sum regroups into the double sum because addition of extended reals is
  commutative and associative, and a quotient by 4 is the product with ¼ for every extended real. No
  finiteness of the inputs is used. No operation of the kernel was rewritten on the way to its idealized
  form, so the idealization claim is trivial; the three frames are the generated ones.
-/
import proofs.«175985_j90357521973758_1_alg».proof.Defs
import proofs.«175985_j90357521973758_1_alg».proof.Proof.Gen.Kernel
import proofs.«175985_j90357521973758_1_alg».proof.Proof.Gen.Kernel.Skeleton
import proofs.«175985_j90357521973758_1_alg».proof.Proof.Gen.Kernel.Launch
import proofs.«175985_j90357521973758_1_alg».proof.Proof.Gen.Kernel.Points
import proofs.«175985_j90357521973758_1_alg».proof.Proof.Gen.Kernel.Frame
import proofs.«175985_j90357521973758_1_alg».proof.Proof.Gen.KernelIdeal
import proofs.«175985_j90357521973758_1_alg».proof.Proof.Gen.KernelIdeal.Skeleton
import proofs.«175985_j90357521973758_1_alg».proof.Proof.Gen.KernelIdeal.Launch
import proofs.«175985_j90357521973758_1_alg».proof.Proof.Gen.KernelIdeal.Points
import proofs.«175985_j90357521973758_1_alg».proof.Proof.Gen.KernelIdeal.Frame
import proofs.«175985_j90357521973758_1_alg».proof.Proof.Gen.KernelIdeal.Value
import proofs.«175985_j90357521973758_1_alg».proof.Proof.Gen.ReferenceIdeal
import proofs.«175985_j90357521973758_1_alg».proof.Proof.Gen.ReferenceIdeal.Run
import proofs.«175985_j90357521973758_1_alg».proof.Proof.Gen.ReferenceIdeal.Read
import proofs.«175985_j90357521973758_1_alg».proof.Proof.Gen.Pre_finite_inputs
import proofs.«175985_j90357521973758_1_alg».proof.Proof.Accumulated
import proofs.«175985_j90357521973758_1_alg».proof.Proof.HostPrefix
import proofs.«175985_j90357521973758_1_alg».proof.Proof.RefTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealized form. -/
theorem preserves : Cert.preserves_Kernel_KernelIdeal := trivial

/-- Both programs end with the specification's result of P and Q, and P and Q are the same functions of
    arguments that agree. -/
theorem algebraic : Cert.algebraic_KernelIdeal_ReferenceIdeal := by
  intro m ρ m' ρ' _ hagree
  refine ⟨fun c => Cert.KernelIdeal.Acc.resultBuf m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v41_eq, Cert.ReferenceIdeal.Tail.result_eq, a0, a1, a2, a3, a4, a5, a6, a7]
  show Cert.MeanOfHeads.result _ _
    = Cert.MeanOfHeads.result (Cert.KernelIdeal.Blocks.weights m c) (Cert.KernelIdeal.Blocks.feats m c)
  rw [show Cert.KernelIdeal.Blocks.weights m c = _ from Cert.KernelIdeal.Prefix.weights_eq m c,
    show Cert.KernelIdeal.Blocks.feats m c = _ from Cert.KernelIdeal.Prefix.feats_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
